-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S2x524288 : Shape := ⟨2, ![2, 524288]⟩
abbrev S16384x36 : Shape := ⟨2, ![16384, 36]⟩
abbrev S36 : Shape := ⟨1, ![36]⟩
abbrev S36x36 : Shape := ⟨2, ![36, 36]⟩
abbrev S36x16 : Shape := ⟨2, ![36, 16]⟩
abbrev S16 : Shape := ⟨1, ![16]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x36 : S_.BroadcastsInDim S16384x36 (![] : Fin 0 → Fin S16384x36.rank)
  reducesTo_S16384x36_S_d0_1 : S16384x36.ReducesTo [0, 1] S_
  bcast_S_S36 : S_.BroadcastsInDim S36 (![] : Fin 0 → Fin S36.rank)
  reducesTo_S36_S_d0 : S36.ReducesTo [0] S_
  bcast_S_S36x36 : S_.BroadcastsInDim S36x36 (![] : Fin 0 → Fin S36x36.rank)
  reducesTo_S36x36_S_d0_1 : S36x36.ReducesTo [0, 1] S_
  bcast_S_S36x16 : S_.BroadcastsInDim S36x16 (![] : Fin 0 → Fin S36x16.rank)
  reducesTo_S36x16_S_d0_1 : S36x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S36 .f32) (main_arg6 : FVec F S36x16 .f32) (main_arg7 : FVec F S16 .f32) (main_v13 : IVec S_ 1) (main_v16 : IVec S36x36 1) : IVec S_ 1 :=
  let main_c_5 : IVec S_ 1 := constantI S_ 1 1#1
  let main_v17 : IVec S_ 1 := (fun x v => Host.reduce IntOp.andi x v reducesTo_S36x36_S_d0_1 h_S_) main_v16 main_c_5
  let main_v18 : IVec S_ 1 := andi main_v13 main_v17
  let main_v19 : FVec F S36 .f32 := Host.absf main_arg5
  let main_cst_6 : FVec F S_ .f32 := constant S_ .f32 0x7F800000#32
  let main_v20 : FVec F S36 .f32 := broadcastInDim S36 ![] bcast_S_S36 main_cst_6
  let main_v21 : IVec S36 1 := cmpf .olt main_v19 main_v20
  let main_c_7 : IVec S_ 1 := constantI S_ 1 1#1
  let main_v22 : IVec S_ 1 := (fun x v => Host.reduce IntOp.andi x v reducesTo_S36_S_d0 h_S_) main_v21 main_c_7
  let main_v23 : IVec S_ 1 := andi main_v18 main_v22
  let main_v24 : FVec F S36x16 .f32 := Host.absf main_arg6
  let main_cst_8 : FVec F S_ .f32 := constant S_ .f32 0x7F800000#32
  let main_v25 : FVec F S36x16 .f32 := broadcastInDim S36x16 ![] bcast_S_S36x16 main_cst_8
  let main_v26 : IVec S36x16 1 := cmpf .olt main_v24 main_v25
  let main_c_9 : IVec S_ 1 := constantI S_ 1 1#1
  let main_v27 : IVec S_ 1 := (fun x v => Host.reduce IntOp.andi x v reducesTo_S36x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S16384x16384 .f32) (main_arg1 : IVec S2x524288 32) (main_arg2 : FVec F S16384x36 .f32) (main_arg3 : FVec F S36 .f32) (main_arg4 : FVec F S36x36 .f32) (main_arg5 : FVec F S36 .f32) (main_arg6 : FVec F S36x16 .f32) (main_arg7 : FVec F S16 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x36 .f32 := Host.absf main_arg2
  let main_cst_0 : FVec F S_ .f32 := constant S_ .f32 0x7F800000#32
  let main_v5 : FVec F S16384x36 .f32 := broadcastInDim S16384x36 ![] bcast_S_S16384x36 main_cst_0
  let main_v6 : IVec S16384x36 1 := cmpf .olt main_v4 main_v5
  let main_c_1 : IVec S_ 1 := constantI S_ 1 1#1
  let main_v7 : IVec S_ 1 := (fun x v => Host.reduce IntOp.andi x v reducesTo_S16384x36_S_d0_1 h_S_) main_v6 main_c_1
  let main_v8 : IVec S_ 1 := andi main_v3 main_v7
  let main_v9 : FVec F S36 .f32 := Host.absf main_arg3
  let main_cst_2 : FVec F S_ .f32 := constant S_ .f32 0x7F800000#32
  let main_v10 : FVec F S36 .f32 := broadcastInDim S36 ![] bcast_S_S36 main_cst_2
  let main_v11 : IVec S36 1 := cmpf .olt main_v9 main_v10
  let main_c_3 : IVec S_ 1 := constantI S_ 1 1#1
  let main_v12 : IVec S_ 1 := (fun x v => Host.reduce IntOp.andi x v reducesTo_S36_S_d0 h_S_) main_v11 main_c_3
  let main_v13 : IVec S_ 1 := andi main_v8 main_v12
  let main_v14 : FVec F S36x36 .f32 := Host.absf main_arg4
  let main_cst_4 : FVec F S_ .f32 := constant S_ .f32 0x7F800000#32
  let main_v15 : FVec F S36x36 .f32 := broadcastInDim S36x36 ![] bcast_S_S36x36 main_cst_4
  let main_v16 : IVec S36x36 1 := cmpf .olt main_v14 main_v15
  fn_part1 (F := F) main_arg5 main_arg6 main_arg7 main_v13 main_v16
-- ==== Kernel.lean ====
abbrev S16384x16384 : Shape := ⟨2, ![16384, 16384]⟩
abbrev S2x524288 : Shape := ⟨2, ![2, 524288]⟩
abbrev S16384x36 : Shape := ⟨2, ![16384, 36]⟩
abbrev S36 : Shape := ⟨1, ![36]⟩
abbrev S36x36 : Shape := ⟨2, ![36, 36]⟩
abbrev S36x16 : Shape := ⟨2, ![36, 16]⟩
abbrev S16 : Shape := ⟨1, ![16]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S256x16384 : Shape := ⟨2, ![256, 16384]⟩
abbrev S256x36 : Shape := ⟨2, ![256, 36]⟩
abbrev S540672x36 : Shape := ⟨2, ![540672, 36]⟩
abbrev S1x36 : Shape := ⟨2, ![1, 36]⟩
abbrev S2048x36 : Shape := ⟨2, ![2048, 36]⟩
abbrev S16384x16 : Shape := ⟨2, ![16384, 16]⟩
abbrev S2048x16 : Shape := ⟨2, ![2048, 16]⟩
abbrev S540672x16 : Shape := ⟨2, ![540672, 16]⟩
abbrev S1x16 : Shape := ⟨2, ![1, 16]⟩
abbrev S16384x1 : Shape := ⟨2, ![16384, 1]⟩

abbrev nBuf : Space → Nat
  | .hbm => 131
  | .vmem => 15
  | .smem => 0
  | _ => 0

abbrev hbmTy0_0 (i : Nat) : BufTy := match i % 128 with
  | 0 => ⟨S16384x16384, .f32⟩
  | 1 => ⟨S2x524288, .i32⟩
  | 2 => ⟨S16384x36, .f32⟩
  | 3 => ⟨S36, .f32⟩
  | 4 => ⟨S36x36, .f32⟩
  | 5 => ⟨S36, .f32⟩
  | 6 => ⟨S36x16, .f32⟩
  | 7 => ⟨S16, .f32⟩
  | 8 => ⟨S16384, .i32⟩
  | 9 => ⟨S1x524288, .i32⟩
  | 10 => ⟨S524288, .i32⟩
  | 11 => ⟨S540672, .i32⟩
  | 12 => ⟨S1x524288, .i32⟩
  | 13 => ⟨S524288, .i32⟩
  | 14 => ⟨S540672, .i32⟩
  | 15 => ⟨S_, .f32⟩
  | 16 => ⟨S540672, .f32⟩
  | 17 => ⟨S_, .f32⟩
  | 18 => ⟨S16384, .f32⟩
  | 19 => ⟨S540672x1, .i32⟩
  | 20 => ⟨S16384, .f32⟩
  | 21 => ⟨S_, .f32⟩
  | 22 => ⟨S16384, .f32⟩
  | 23 => ⟨S16384, .i1⟩
  | 24 => ⟨S_, .f32⟩
  | 25 => ⟨S16384, .f32⟩
  | 26 => ⟨S16384, .f32⟩
  | 27 => ⟨S16384, .f32⟩
  | 28 => ⟨S_, .f32⟩
  | 29 => ⟨S_, .f32⟩
  | 30 => ⟨S16384, .f32⟩
  | 31 => ⟨S16384, .f32⟩
  | 32 => ⟨S_, .i32⟩
  | 33 => ⟨S540672, .i32⟩
  | 34 => ⟨S540672, .i1⟩
  | 35 => ⟨S_, .i32⟩
  | 36 => ⟨S540672, .i32⟩
  | 37 => ⟨S540672, .i32⟩
  | 38 => ⟨S540672, .i32⟩
  | 39 => ⟨S540672x1, .i32⟩
  | 40 => ⟨S540672, .f32⟩
  | 41 => ⟨S_, .i32⟩
  | 42 => ⟨S540672, .i32⟩
  | 43 => ⟨S540672, .i1⟩
  | 44 => ⟨S_, .i32⟩
  | 45 => ⟨S540672, .i32⟩
  | 46 => ⟨S540672, .i32⟩
  | 47 => ⟨S540672, .i32⟩
  | 48 => ⟨S540672x1, .i32⟩
  | 49 => ⟨S540672, .f32⟩
  | 50 => ⟨S540672, .f32⟩
  | 51 => ⟨S16384x36, .f32⟩
  | 52 => ⟨S_, .i32⟩
  | 53 => ⟨S540672, .i32⟩
  | 54 => ⟨S540672, .i1⟩
  | 55 => ⟨S_, .i32⟩
  | 56 => ⟨S540672, .i32⟩
  | 57 => ⟨S540672, .i32⟩
  | 58 => ⟨S540672, .i32⟩
  | 59 => ⟨S540672x1, .i32⟩
  | 60 => ⟨S540672x36, .f32⟩
  | 61 => ⟨S540672x1, .f32⟩
  | 62 => ⟨S540672x36, .f32⟩
  | 63 => ⟨S540672x36, .f32⟩
  | 64 => ⟨S_, .f32⟩
  | 65 => ⟨S16384x36, .f32⟩
  | 66 => ⟨S540672x1, .i32⟩
  | 67 => ⟨S16384x36, .f32⟩
  | 68 => ⟨S1x36, .f32⟩
  | 69 => ⟨S16384x36, .f32⟩
  | 70 => ⟨S16384x36, .f32⟩
  | 71 => ⟨S_, .f32⟩
  | 72 => ⟨S16384x36, .f32⟩
  | 73 => ⟨S16384x36, .f32⟩
  | 74 => ⟨S16384x36, .f32⟩
  | 75 => ⟨S_, .i32⟩
  | 76 => ⟨S540672, .i32⟩
  | 77 => ⟨S540672, .i1⟩
  | 78 => ⟨S_, .i32⟩
  | 79 => ⟨S540672, .i32⟩
  | 80 => ⟨S540672, .i32⟩
  | 81 => ⟨S540672, .i32⟩
  | 82 => ⟨S540672x1, .i32⟩
  | 83 => ⟨S540672x36, .f32⟩
  | 84 => ⟨S540672x1, .f32⟩
  | 85 => ⟨S540672x36, .f32⟩
  | 86 => ⟨S540672x36, .f32⟩
  | 87 => ⟨S_, .f32⟩
  | 88 => ⟨S16384x36, .f32⟩
  | 89 => ⟨S540672x1, .i32⟩
  | 90 => ⟨S16384x36, .f32⟩
  | 91 => ⟨S1x36, .f32⟩
  | 92 => ⟨S16384x36, .f32⟩
  | 93 => ⟨S16384x36, .f32⟩
  | 94 => ⟨S_, .f32⟩
  | 95 => ⟨S16384x36, .f32⟩
  | 96 => ⟨S16384x36, .f32⟩
  | 97 => ⟨S16384x16, .f32⟩
  | 98 => ⟨S_, .i32⟩
  | 99 => ⟨S540672, .i32⟩
  | 100 => ⟨S540672, .i1⟩
  | 101 => ⟨S_, .i32⟩
  | 102 => ⟨S540672, .i32⟩
  | 103 => ⟨S540672, .i32⟩
  | 104 => ⟨S540672, .i32⟩
  | 105 => ⟨S540672x1, .i32⟩
  | 106 => ⟨S540672x16, .f32⟩
  | 107 => ⟨S540672x1, .f32⟩
  | 108 => ⟨S540672x16, .f32⟩
  | 109 => ⟨S540672x16, .f32⟩
  | 110 => ⟨S_, .f32⟩
  | 111 => ⟨S16384x16, .f32⟩
  | 112 => ⟨S540672x1, .i32⟩
  | 113 => ⟨S16384x16, .f32⟩
  | 114 => ⟨S1x16, .f32⟩
  | 115 => ⟨S16384x16, .f32⟩
  | 116 => ⟨S16384x16, .f32⟩
  | 117 => ⟨S_, .f32⟩
  | 118 => ⟨S16384, .f32⟩
  | 119 => ⟨S_, .f32⟩
  | 120 => ⟨S16384, .f32⟩
  | 121 => ⟨S16384, .f32⟩
  | 122 => ⟨S16384x1, .f32⟩
  | 123 => ⟨S16384x16, .f32⟩
  | 124 => ⟨S16384x16, .f32⟩
  | 125 => ⟨S16384x16, .f32⟩
  | 126 => ⟨S_, .f32⟩
  | 127 => ⟨S16384, .f32⟩
  | _ => ⟨S16384x16384, .f32⟩

abbrev hbmTy0_1 (i : Nat) : BufTy := match i % 128 with
  | 0 => ⟨S16384x1, .f32⟩
  | 1 => ⟨S16384x16, .f32⟩
  | 2 => ⟨S16384x16, .f32⟩
  | _ => ⟨S16384x16384, .f32⟩

abbrev hbmTy (i : Nat) : BufTy := match i / 128 with
  | 0 => hbmTy0_0 i
  | 1 => hbmTy0_1 i
  | _ => ⟨S16384x16384, .f32⟩

abbrev bufTy : (tb : Table) → Fin (tcTables nBuf tb) → BufTy
  | .hbm, ⟨i, _⟩ => hbmTy i
  | .local _ .vmem, ⟨0, _⟩ => ⟨S256x16384, .f32⟩
  | .local _ .vmem, ⟨1, _⟩ => ⟨S256x16384, .f32⟩
  | .local _ .vmem, ⟨2, _⟩ => ⟨S16384x36, .f32⟩
  | .local _ .vmem, ⟨3, _⟩ => ⟨S256x36, .f32⟩
  | .local _ .vmem, ⟨4, _⟩ => ⟨S256x36, .f32⟩
  | .local _ .vmem, ⟨5, _⟩ => ⟨S2048x36, .f32⟩
  | .local _ .vmem, ⟨6, _⟩ => ⟨S2048x36, .f32⟩
  | .local _ .vmem, ⟨7, _⟩ => ⟨S36x36, .f32⟩
  | .local _ .vmem, ⟨8, _⟩ => ⟨S2048x36, .f32⟩
  | .local _ .vmem, ⟨9, _⟩ => ⟨S2048x36, .f32⟩
  | .local _ .vmem, ⟨10, _⟩ => ⟨S2048x36, .f32⟩
  | .local _ .vmem, ⟨11, _⟩ => ⟨S2048x36, .f32⟩
  | .local _ .vmem, ⟨12, _⟩ => ⟨S36x16, .f32⟩
  | .local _ .vmem, ⟨13, _⟩ => ⟨S2048x16, .f32⟩
  | .local _ .vmem, ⟨14, _⟩ => ⟨S2048x16, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_16 : Ref sig .tc := ⟨.hbm, 117, rfl⟩
abbrev main_v85 : Ref sig .tc := ⟨.hbm, 118, rfl⟩
abbrev main_cst_17 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_18 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x36 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x36 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x36 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S36x36 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x36 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x36 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S36x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  inb_S256x16384_S256x16384_0_0 : ∀ a, (![0, 0] : Fin 2 → Nat) a + S256x16384.size a ≤ S256x16384.size a
  h_S256x16384 : 0 < S256x16384.numel
  inb_S16384x36_S16384x36_0_0 : ∀ a, (![0, 0] : Fin 2 → Nat) a + S16384x36.size a ≤ S16384x36.size a
  h_S16384x36 : 0 < S16384x36.numel
  bitsLt_bf16_f32 : FTy.bits .bf16 < FTy.bits .f32
  inb_S256x36_S256x36_0_0 : ∀ a, (![0, 0] : Fin 2 → Nat) a + S256x36.size a ≤ S256x36.size a
  h_S256x36 : 0 < S256x36.numel
  bcast_S540672x1_S540672x36_0_1 : S540672x1.BroadcastsInDim S540672x36 (![0, 1] : Fin 2 → Fin S540672x36.rank)
  bcast_S_S16384x36 : S_.BroadcastsInDim S16384x36 (![] : Fin 0 → Fin S16384x36.rank)
  bcast_S36_S1x36_1 : S36.BroadcastsInDim S1x36 (![1] : Fin 1 → Fin S1x36.rank)
  bcast_S1x36_S16384x36_0_1 : S1x36.BroadcastsInDim S16384x36 (![0, 1] : Fin 2 → Fin S16384x36.rank)
  inb_S2048x36_S2048x36_0_0 : ∀ a, (![0, 0] : Fin 2 → Nat) a + S2048x36.size a ≤ S2048x36.size a
  h_S2048x36 : 0 < S2048x36.numel
  shapeCasts_S2048x36_S2048x36 : S2048x36.ShapeCasts S2048x36
  inb_S36x36_S36x36_0_0 : ∀ a, (![0, 0] : Fin 2 → Nat) a + S36x36.size a ≤ S36x36.size a
  h_S36x36 : 0 < S36x36.numel
  inb_S36x16_S36x16_0_0 : ∀ a, (![0, 0] : Fin 2 → Nat) a + S36x16.size a ≤ S36x16.size a
  h_S36x16 : 0 < S36x16.numel
  inb_S2048x16_S2048x16_0_0 : ∀ a, (![0, 0] : Fin 2 → Nat) a + S2048x16.size a ≤ S2048x16.size a
  h_S2048x16 : 0 < S2048x16.numel
  bcast_S540672x1_S540672x16_0_1 : S540672x1.BroadcastsInDim S540672x16 (![0, 1] : Fin 2 → Fin S540672x16.rank)
  bcast_S_S16384x16 : S_.BroadcastsInDim S16384x16 (![] : Fin 0 → Fin S16384x16.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  reducesTo_S16384x16_S16384_d1 : S16384x16.ReducesTo [1] S16384
  h_S_ : 0 < S_.numel
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S256x16384_S16384x36_S256x36_1_0_0_1_n_n_wf : DotDims.WF S256x16384 S16384x36 S256x36 [1] [0] [0] [1] [] []
  gather_S16384x36_S540672x1_S540672x36_1_0_n_n_0_1_136_wf : GatherDims.WF S16384x36 S540672x1 S540672x36 [1] [0] [] [0] [] 1 ![1, 36]
  scatter_S16384x36_S540672x1_S540672x36_1_0_0_1_wf : ScatterDims.WF S16384x36 S540672x1 S540672x36 [1] [0] [0] 1
  dot_S2048x36_S36x36_S2048x36_1_0_0_1_n_n_wf : DotDims.WF S2048x36 S36x36 S2048x36 [1] [0] [0] [1] [] []
  dot_S2048x36_S36x16_S2048x16_1_0_0_1_n_n_wf : DotDims.WF S2048x36 S36x16 S2048x16 [1] [0] [0] [1] [] []
  gather_S16384x16_S540672x1_S540672x16_1_0_n_n_0_1_116_wf : GatherDims.WF S16384x16 S540672x1 S540672x16 [1] [0] [] [0] [] 1 ![1, 16]
  scatter_S16384x16_S540672x1_S540672x16_1_0_0_1_wf : ScatterDims.WF S16384x16 S540672x1 S540672x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S16384x16384.size a
  hwx0_0 : ∀ i : grid0.Coords, EltTy.bits .f32 = 32 ∨ (Rect.block (s := S16384x16384) S256x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x36.size a ≤ S16384x36.size a
  hwx0_1 : ∀ i : grid0.Coords, EltTy.bits .f32 = 32 ∨ (Rect.block (s := S16384x36) S16384x36.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x36.size a ≤ S16384x36.size a
  hwx0_2 : ∀ i : grid0.Coords, EltTy.bits .f32 = 32 ∨ (Rect.block (s := S16384x36) S256x36.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x36.size a ≤ S16384x36.size a
  hwx1_0 : ∀ i : grid1.Coords, EltTy.bits .f32 = 32 ∨ (Rect.block (s := S16384x36) S2048x36.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S36x36.size a ≤ S36x36.size a
  hwx1_1 : ∀ i : grid1.Coords, EltTy.bits .f32 = 32 ∨ (Rect.block (s := S36x36) S36x36.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x36.size a ≤ S16384x36.size a
  hwx1_2 : ∀ i : grid1.Coords, EltTy.bits .f32 = 32 ∨ (Rect.block (s := S16384x36) S2048x36.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x36.size a ≤ S16384x36.size a
  hwx2_0 : ∀ i : grid2.Coords, EltTy.bits .f32 = 32 ∨ (Rect.block (s := S16384x36) S2048x36.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S36x16.size a ≤ S36x16.size a
  hwx2_1 : ∀ i : grid2.Coords, EltTy.bits .f32 = 32 ∨ (Rect.block (s := S36x16) S36x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x16.size a ≤ S16384x16.size a
  hwx2_2 : ∀ i : grid2.Coords, EltTy.bits .f32 = 32 ∨ (Rect.block (s := S16384x16) S2048x16.size (cc2_transform_2 i) (hinb2_2 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S256x16384_S16384x36_S256x36_1_0_0_1_n_n : DotDims S256x16384 S16384x36 S256x36 where
  lhsContracting := [1]
  rhsContracting := [0]
  lhsNonContracting := [0]
  rhsNonContracting := [1]
  lhsBatch := []
  rhsBatch := []
  wf := dot_S256x16384_S16384x36_S256x36_1_0_0_1_n_n_wf
def gather_S16384x36_S540672x1_S540672x36_1_0_n_n_0_1_136 : GatherDims S16384x36 S540672x1 S540672x36 where
  offsetDims := [1]
  collapsedSliceDims := [0]
  operandBatchingDims := []
  startIndicesBatchingDims := []
  startIndexMap := [0]
  indexVectorDim := 1
  sliceSizes := ![1, 36]
  wf := gather_S16384x36_S540672x1_S540672x36_1_0_n_n_0_1_136_wf
def scatter_S16384x36_S540672x1_S540672x36_1_0_0_1 : ScatterDims S16384x36 S540672x1 S540672x36 where
  updateWindowDims := [1]
  insertedWindowDims := [0]
  scatterDimsToOperandDims := [0]
  indexVectorDim := 1
  wf := scatter_S16384x36_S540672x1_S540672x36_1_0_0_1_wf
def dot_S2048x36_S36x36_S2048x36_1_0_0_1_n_n : DotDims S2048x36 S36x36 S2048x36 where
  lhsContracting := [1]
  rhsContracting := [0]
  lhsNonContracting := [0]
  rhsNonContracting := [1]
  lhsBatch := []
  rhsBatch := []
  wf := dot_S2048x36_S36x36_S2048x36_1_0_0_1_n_n_wf
def dot_S2048x36_S36x16_S2048x16_1_0_0_1_n_n : DotDims S2048x36 S36x16 S2048x16 where
  lhsContracting := [1]
  rhsContracting := [0]
  lhsNonContracting := [0]
  rhsNonContracting := [1]
  lhsBatch := []
  rhsBatch := []
  wf := dot_S2048x36_S36x16_S2048x16_1_0_0_1_n_n_wf
def gather_S16384x16_S540672x1_S540672x16_1_0_n_n_0_1_116 : GatherDims S16384x16 S540672x1 S540672x16 where
  offsetDims := [1]
  collapsedSliceDims := [0]
  operandBatchingDims := []
  startIndicesBatchingDims := []
  startIndexMap := [0]
  indexVectorDim := 1
  sliceSizes := ![1, 16]
  wf := gather_S16384x16_S540672x1_S540672x16_1_0_n_n_0_1_116_wf
def scatter_S16384x16_S540672x1_S540672x16_1_0_0_1 : ScatterDims S16384x16 S540672x1 S540672x16 where
  updateWindowDims := [1]
  insertedWindowDims := [0]
  scatterDimsToOperandDims := [0]
  indexVectorDim := 1
  wf := scatter_S16384x16_S540672x1_S540672x16_1_0_0_1_wf

abbrev win0_0 : Pipeline.Window sig grid0 :=
  Pipeline.Window.ofSpec (Memref.whole main_arg0) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16384x36.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S256x36.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2048x36.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S36x36.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2048x36.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S2048x36.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S36x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S2048x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x16384 : Shape := ⟨2, ![16384, 16384]⟩
abbrev S2x524288 : Shape := ⟨2, ![2, 524288]⟩
abbrev S16384x36 : Shape := ⟨2, ![16384, 36]⟩
abbrev S36 : Shape := ⟨1, ![36]⟩
abbrev S36x36 : Shape := ⟨2, ![36, 36]⟩
abbrev S36x16 : Shape := ⟨2, ![36, 16]⟩
abbrev S16 : Shape := ⟨1, ![16]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S540672x36 : Shape := ⟨2, ![540672, 36]⟩
abbrev S1x36 : Shape := ⟨2, ![1, 36]⟩
abbrev S16384x16 : Shape := ⟨2, ![16384, 16]⟩
abbrev S540672x16 : Shape := ⟨2, ![540672, 16]⟩
abbrev S1x16 : Shape := ⟨2, ![1, 16]⟩
abbrev S16384x1 : Shape := ⟨2, ![16384, 1]⟩

abbrev nBuf : Space → Nat
  | .hbm => 131
  | .vmem => 0
  | .smem => 0
  | _ => 0

abbrev hbmTy0_0 (i : Nat) : BufTy := match i % 128 with
  | 0 => ⟨S16384x16384, .f32⟩
  | 1 => ⟨S2x524288, .i32⟩
  | 2 => ⟨S16384x36, .f32⟩
  | 3 => ⟨S36, .f32⟩
  | 4 => ⟨S36x36, .f32⟩
  | 5 => ⟨S36, .f32⟩
  | 6 => ⟨S36x16, .f32⟩
  | 7 => ⟨S16, .f32⟩
  | 8 => ⟨S16384, .i32⟩
  | 9 => ⟨S1x524288, .i32⟩
  | 10 => ⟨S524288, .i32⟩
  | 11 => ⟨S540672, .i32⟩
  | 12 => ⟨S1x524288, .i32⟩
  | 13 => ⟨S524288, .i32⟩
  | 14 => ⟨S540672, .i32⟩
  | 15 => ⟨S_, .f32⟩
  | 16 => ⟨S540672, .f32⟩
  | 17 => ⟨S_, .f32⟩
  | 18 => ⟨S16384, .f32⟩
  | 19 => ⟨S540672x1, .i32⟩
  | 20 => ⟨S16384, .f32⟩
  | 21 => ⟨S_, .f32⟩
  | 22 => ⟨S16384, .f32⟩
  | 23 => ⟨S16384, .i1⟩
  | 24 => ⟨S_, .f32⟩
  | 25 => ⟨S16384, .f32⟩
  | 26 => ⟨S16384, .f32⟩
  | 27 => ⟨S16384, .f32⟩
  | 28 => ⟨S_, .f32⟩
  | 29 => ⟨S_, .f32⟩
  | 30 => ⟨S16384, .f32⟩
  | 31 => ⟨S16384, .f32⟩
  | 32 => ⟨S_, .i32⟩
  | 33 => ⟨S540672, .i32⟩
  | 34 => ⟨S540672, .i1⟩
  | 35 => ⟨S_, .i32⟩
  | 36 => ⟨S540672, .i32⟩
  | 37 => ⟨S540672, .i32⟩
  | 38 => ⟨S540672, .i32⟩
  | 39 => ⟨S540672x1, .i32⟩
  | 40 => ⟨S540672, .f32⟩
  | 41 => ⟨S_, .i32⟩
  | 42 => ⟨S540672, .i32⟩
  | 43 => ⟨S540672, .i1⟩
  | 44 => ⟨S_, .i32⟩
  | 45 => ⟨S540672, .i32⟩
  | 46 => ⟨S540672, .i32⟩
  | 47 => ⟨S540672, .i32⟩
  | 48 => ⟨S540672x1, .i32⟩
  | 49 => ⟨S540672, .f32⟩
  | 50 => ⟨S540672, .f32⟩
  | 51 => ⟨S16384x36, .f32⟩
  | 52 => ⟨S_, .i32⟩
  | 53 => ⟨S540672, .i32⟩
  | 54 => ⟨S540672, .i1⟩
  | 55 => ⟨S_, .i32⟩
  | 56 => ⟨S540672, .i32⟩
  | 57 => ⟨S540672, .i32⟩
  | 58 => ⟨S540672, .i32⟩
  | 59 => ⟨S540672x1, .i32⟩
  | 60 => ⟨S540672x36, .f32⟩
  | 61 => ⟨S540672x1, .f32⟩
  | 62 => ⟨S540672x36, .f32⟩
  | 63 => ⟨S540672x36, .f32⟩
  | 64 => ⟨S_, .f32⟩
  | 65 => ⟨S16384x36, .f32⟩
  | 66 => ⟨S540672x1, .i32⟩
  | 67 => ⟨S16384x36, .f32⟩
  | 68 => ⟨S1x36, .f32⟩
  | 69 => ⟨S16384x36, .f32⟩
  | 70 => ⟨S16384x36, .f32⟩
  | 71 => ⟨S_, .f32⟩
  | 72 => ⟨S16384x36, .f32⟩
  | 73 => ⟨S16384x36, .f32⟩
  | 74 => ⟨S16384x36, .f32⟩
  | 75 => ⟨S_, .i32⟩
  | 76 => ⟨S540672, .i32⟩
  | 77 => ⟨S540672, .i1⟩
  | 78 => ⟨S_, .i32⟩
  | 79 => ⟨S540672, .i32⟩
  | 80 => ⟨S540672, .i32⟩
  | 81 => ⟨S540672, .i32⟩
  | 82 => ⟨S540672x1, .i32⟩
  | 83 => ⟨S540672x36, .f32⟩
  | 84 => ⟨S540672x1, .f32⟩
  | 85 => ⟨S540672x36, .f32⟩
  | 86 => ⟨S540672x36, .f32⟩
  | 87 => ⟨S_, .f32⟩
  | 88 => ⟨S16384x36, .f32⟩
  | 89 => ⟨S540672x1, .i32⟩
  | 90 => ⟨S16384x36, .f32⟩
  | 91 => ⟨S1x36, .f32⟩
  | 92 => ⟨S16384x36, .f32⟩
  | 93 => ⟨S16384x36, .f32⟩
  | 94 => ⟨S_, .f32⟩
  | 95 => ⟨S16384x36, .f32⟩
  | 96 => ⟨S16384x36, .f32⟩
  | 97 => ⟨S16384x16, .f32⟩
  | 98 => ⟨S_, .i32⟩
  | 99 => ⟨S540672, .i32⟩
  | 100 => ⟨S540672, .i1⟩
  | 101 => ⟨S_, .i32⟩
  | 102 => ⟨S540672, .i32⟩
  | 103 => ⟨S540672, .i32⟩
  | 104 => ⟨S540672, .i32⟩
  | 105 => ⟨S540672x1, .i32⟩
  | 106 => ⟨S540672x16, .f32⟩
  | 107 => ⟨S540672x1, .f32⟩
  | 108 => ⟨S540672x16, .f32⟩
  | 109 => ⟨S540672x16, .f32⟩
  | 110 => ⟨S_, .f32⟩
  | 111 => ⟨S16384x16, .f32⟩
  | 112 => ⟨S540672x1, .i32⟩
  | 113 => ⟨S16384x16, .f32⟩
  | 114 => ⟨S1x16, .f32⟩
  | 115 => ⟨S16384x16, .f32⟩
  | 116 => ⟨S16384x16, .f32⟩
  | 117 => ⟨S_, .f32⟩
  | 118 => ⟨S16384, .f32⟩
  | 119 => ⟨S_, .f32⟩
  | 120 => ⟨S16384, .f32⟩
  | 121 => ⟨S16384, .f32⟩
  | 122 => ⟨S16384x1, .f32⟩
  | 123 => ⟨S16384x16, .f32⟩
  | 124 => ⟨S16384x16, .f32⟩
  | 125 => ⟨S16384x16, .f32⟩
  | 126 => ⟨S_, .f32⟩
  | 127 => ⟨S16384, .f32⟩
  | _ => ⟨S16384x16384, .f32⟩

abbrev hbmTy0_1 (i : Nat) : BufTy := match i % 128 with
  | 0 => ⟨S16384x1, .f32⟩
  | 1 => ⟨S16384x16, .f32⟩
  | 2 => ⟨S16384x16, .f32⟩
  | _ => ⟨S16384x16384, .f32⟩

abbrev hbmTy (i : Nat) : BufTy := match i / 128 with
  | 0 => hbmTy0_0 i
  | 1 => hbmTy0_1 i
  | _ => ⟨S16384x16384, .f32⟩

abbrev bufTy : (tb : Table) → Fin (tcTables nBuf tb) → BufTy
  | .hbm, ⟨i, _⟩ => hbmTy i
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_16 : Ref sig .tc := ⟨.hbm, 117, rfl⟩
abbrev main_v85 : Ref sig .tc := ⟨.hbm, 118, rfl⟩
abbrev main_cst_17 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_18 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x36_0_1 : S540672x1.BroadcastsInDim S540672x36 (![0, 1] : Fin 2 → Fin S540672x36.rank)
  bcast_S_S16384x36 : S_.BroadcastsInDim S16384x36 (![] : Fin 0 → Fin S16384x36.rank)
  bcast_S36_S1x36_1 : S36.BroadcastsInDim S1x36 (![1] : Fin 1 → Fin S1x36.rank)
  bcast_S1x36_S16384x36_0_1 : S1x36.BroadcastsInDim S16384x36 (![0, 1] : Fin 2 → Fin S16384x36.rank)
  bcast_S540672x1_S540672x16_0_1 : S540672x1.BroadcastsInDim S540672x16 (![0, 1] : Fin 2 → Fin S540672x16.rank)
  bcast_S_S16384x16 : S_.BroadcastsInDim S16384x16 (![] : Fin 0 → Fin S16384x16.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  reducesTo_S16384x16_S16384_d1 : S16384x16.ReducesTo [1] S16384
  h_S_ : 0 < S_.numel
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x16384_S16384x36_S16384x36_1_0_0_1_n_n_wf : DotDims.WF S16384x16384 S16384x36 S16384x36 [1] [0] [0] [1] [] []
  gather_S16384x36_S540672x1_S540672x36_1_0_n_n_0_1_136_wf : GatherDims.WF S16384x36 S540672x1 S540672x36 [1] [0] [] [0] [] 1 ![1, 36]
  scatter_S16384x36_S540672x1_S540672x36_1_0_0_1_wf : ScatterDims.WF S16384x36 S540672x1 S540672x36 [1] [0] [0] 1
  dot_S16384x36_S36x36_S16384x36_1_0_0_1_n_n_wf : DotDims.WF S16384x36 S36x36 S16384x36 [1] [0] [0] [1] [] []
  dot_S16384x36_S36x16_S16384x16_1_0_0_1_n_n_wf : DotDims.WF S16384x36 S36x16 S16384x16 [1] [0] [0] [1] [] []
  gather_S16384x16_S540672x1_S540672x16_1_0_n_n_0_1_116_wf : GatherDims.WF S16384x16 S540672x1 S540672x16 [1] [0] [] [0] [] 1 ![1, 16]
  scatter_S16384x16_S540672x1_S540672x16_1_0_0_1_wf : ScatterDims.WF S16384x16 S540672x1 S540672x16 [1] [0] [0] 1

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x16384_S16384x36_S16384x36_1_0_0_1_n_n : DotDims S16384x16384 S16384x36 S16384x36 where
  lhsContracting := [1]
  rhsContracting := [0]
  lhsNonContracting := [0]
  rhsNonContracting := [1]
  lhsBatch := []
  rhsBatch := []
  wf := dot_S16384x16384_S16384x36_S16384x36_1_0_0_1_n_n_wf
def gather_S16384x36_S540672x1_S540672x36_1_0_n_n_0_1_136 : GatherDims S16384x36 S540672x1 S540672x36 where
  offsetDims := [1]
  collapsedSliceDims := [0]
  operandBatchingDims := []
  startIndicesBatchingDims := []
  startIndexMap := [0]
  indexVectorDim := 1
  sliceSizes := ![1, 36]
  wf := gather_S16384x36_S540672x1_S540672x36_1_0_n_n_0_1_136_wf
def scatter_S16384x36_S540672x1_S540672x36_1_0_0_1 : ScatterDims S16384x36 S540672x1 S540672x36 where
  updateWindowDims := [1]
  insertedWindowDims := [0]
  scatterDimsToOperandDims := [0]
  indexVectorDim := 1
  wf := scatter_S16384x36_S540672x1_S540672x36_1_0_0_1_wf
def dot_S16384x36_S36x36_S16384x36_1_0_0_1_n_n : DotDims S16384x36 S36x36 S16384x36 where
  lhsContracting := [1]
  rhsContracting := [0]
  lhsNonContracting := [0]
  rhsNonContracting := [1]
  lhsBatch := []
  rhsBatch := []
  wf := dot_S16384x36_S36x36_S16384x36_1_0_0_1_n_n_wf
def dot_S16384x36_S36x16_S16384x16_1_0_0_1_n_n : DotDims S16384x36 S36x16 S16384x16 where
  lhsContracting := [1]
  rhsContracting := [0]
  lhsNonContracting := [0]
  rhsNonContracting := [1]
  lhsBatch := []
  rhsBatch := []
  wf := dot_S16384x36_S36x16_S16384x16_1_0_0_1_n_n_wf
def gather_S16384x16_S540672x1_S540672x16_1_0_n_n_0_1_116 : GatherDims S16384x16 S540672x1 S540672x16 where
  offsetDims := [1]
  collapsedSliceDims := [0]
  operandBatchingDims := []
  startIndicesBatchingDims := []
  startIndexMap := [0]
  indexVectorDim := 1
  sliceSizes := ![1, 16]
  wf := gather_S16384x16_S540672x1_S540672x16_1_0_n_n_0_1_116_wf
def scatter_S16384x16_S540672x1_S540672x16_1_0_0_1 : ScatterDims S16384x16 S540672x1 S540672x16 where
  updateWindowDims := [1]
  insertedWindowDims := [0]
  scatterDimsToOperandDims := [0]
  indexVectorDim := 1
  wf := scatter_S16384x16_S540672x1_S540672x16_1_0_0_1_wf

class Facts : Prop extends Facts₀ where

variable [Facts]
-- ==== Proof.KernelRun.lean ====
/-
  The idealized kernel's run with its result named.

  @main is eleven segments: stretches of host operations around three tiled matrix products. Every weakly fair
  execution from a memory with zero counters terminates without a fault, and on every core each unscoped buffer ends
  at the last boundary's contents `W11` — the fold of the host stretches and of the three regions' write-backs from the
  launch memory. Kept here for the result buffer as well as for the arguments: the result ends at `W11 … main_v95`,
  and the arguments end as launched.
-/
import proofs.«108757_j71734543778230_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run_value : θ_run defs (onTc (τ := τ) (main (F := F))) ⟨m, fun _ => 0, ρ⟩ (fun r => ∀ c : Dev nD,
      r.2.mem ((c.tc : Thread nD τ).loc main_v95) = W11 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v95 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Run

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«108757_j71734543778230_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.Layer1Product.lean ====
/-
  The first layer's product x · W₁, tiled over its rows, is the host's one product.

  The grid has 64 points; point `t` multiplies rows `256·t … 256·t + 255` of the left operand by the whole right operand
  (both rounded to bf16 on the way in, which on the extended reals is the identity) and writes the 256×36 result back as the same rows of the output. So the block a point writes back is the
  host's one product `A · W` read through the point's rows (`flushed_eq`: entry `(p, q)` of the block is
  `∑ k, A (256·t + p, k) * W (k, q)` on both sides), the 64 blocks tile the output (`cover`), and the output array
  after the region is that product (`final`) — whatever the arrays the region finds hold, finite or not.
-/
import proofs.«108757_j71734543778230_1_alg».proof.Proof.Gen.KernelIdeal.Frame
import proofs.«108757_j71734543778230_1_alg».proof.Proof.LibRowBlock
import Idealize.ShloMosaic.Lib.Pipeline.Value
import Idealize.ShloMosaic.Lib.ValueIdx

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The host's product of the two arrays the region finds: the 16384×16384 left operand by the 16384×36 right one. -/
def whole (c : Dev nD) : S16384x36.Idx → EReal :=
  Host.dotGeneral (F := Ideal) (φ₁ := .f32) (φ₂ := .f32) (DotDims.plain 16384 16384 36) none (V c main_arg0) (V c main_arg2)

/-- The index maps over the grid: the left operand's row block moves with the output's, every column block and
    the right operand's block stay at zero, and there are 64 row blocks. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 63 :=
  (by decide +kernel : ∀ t : Fin grid0.N, _)

/-- Every row block is some point's. -/
theorem idx_onto : ∀ q0 : Fin 64, ∃ t : Fin cfg0.N, win0_2.index t = ![q0.val, 0] :=
  (by decide +kernel : ∀ q0 : Fin 64, ∃ t : Fin grid0.N, win0_2.index t = ![q0.val, 0])

/-- Row `p` of the left operand's block at point `t` is row `256·t + p` of the array. -/
theorem read_left (c : Dev nD) (t : Fin cfg0.N) (p : Fin 256) (k : Fin 16384) (P : Fin 16384)
    (hP : P.val = win0_2.index t (0 : Fin 2) * 256 + p.val) :
    (iblk0 V c 0 t (ix2 p k) : EReal) = V c main_arg0 (ix2 P k) := by
  obtain ⟨e0, e1, -⟩ := idx_facts t
  show V c main_arg0 (((cfg0.win 0).blk t).view.emb (ix2 p k)) = V c main_arg0 (ix2 P k)
  refine congrArg (V c main_arg0) ?_
  funext a; apply Fin.ext
  match a with
  | ⟨0, _⟩ => show win0_0.index t (0 : Fin 2) * 256 + 1 * p.val = P.val; omega
  | ⟨1, _⟩ => show win0_0.index t (1 : Fin 2) * 16384 + 1 * k.val = k.val; omega

/-- The right operand's block at any point is the whole array. -/
theorem read_right (c : Dev nD) (t : Fin cfg0.N) (k : Fin 16384) (q : Fin 36) :
    (iblk0 V c 1 t (ix2 k q) : EReal) = V c main_arg2 (ix2 k q) := by
  obtain ⟨-, -, e2, e3, -⟩ := idx_facts t
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 16384 + 1 * k.val = k.val; omega
  | ⟨1, _⟩ => show win0_1.index t (1 : Fin 2) * 36 + 1 * q.val = q.val; omega

/-- The body's stored value on any two loaded blocks, at an entry: the product, from the zero array, of the two blocks after their change of format to bf16. -/
theorem pay_apply (x0 : Vec Ideal S256x16384 .f32) (x1 : Vec Ideal S16384x36 .f32) (p : Fin 256) (q : Fin 36) :
    k0_pay1 x0 x1 (ix2 p q)
      = FloatOps.matmul (F := Ideal) (φ₁ := .bf16) (φ₂ := .bf16) (DotDims.plain 256 16384 36) none (truncf .bf16 x0 bitsLt_bf16_f32) (truncf .bf16 x1 bitsLt_bf16_f32)
          (constant ⟨2, ![256, 36]⟩ .f32 0x00000000#32) (ix2 p q) := by
  unfold k0_pay1
  rfl

/-- WHAT POINT `t` WRITES BACK is the whole product read through the point's rows. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S256x16384) hz, View.ld_unit_zero (S := S16384x36) hz]
  obtain ⟨-, -, -, -, e4, e5⟩ := idx_facts t
  funext j
  obtain ⟨p, q, rfl⟩ : ∃ (p : Fin 256) (q : Fin 36), j = ix2 p q := ⟨j 0, j 1, eq_ix2 j⟩
  have hp : p.val < 256 := p.isLt
  let P : Fin 16384 := ⟨win0_2.index t (0 : Fin 2) * 256 + p.val, by omega⟩
  have hemb : ((cfg0.win 2).blk t).view.emb (ix2 p q) = ix2 P q := by
    funext a; apply Fin.ext
    match a with
    | ⟨0, _⟩ => show win0_2.index t (0 : Fin 2) * 256 + 1 * p.val = win0_2.index t (0 : Fin 2) * 256 + p.val; omega
    | ⟨1, _⟩ => show win0_2.index t (1 : Fin 2) * 36 + 1 * q.val = q.val; omega
  show k0_pay1 (iblk0 V c 0 t) (iblk0 V c 1 t) (ix2 p q) = whole V c (((cfg0.win 2).blk t).view.emb (ix2 p q))
  rw [hemb, pay_apply]
  unfold whole
  exact Cert.Lib.RowBlock.matmul_eq_dotGeneral none none .single (V c main_arg0) (V c main_arg2) _ _ P p q
    (fun k => read_left V c t p k P rfl) (fun k => read_right V c t k q)

/-- An index of the output is in point `t`'s block iff each coordinate is in the block's range on its axis. -/
theorem mem_blk (t : Fin cfg0.N) (i : S16384x36.Idx) :
    i ∈ ((cfg0.win 2).blk t).view.set ↔ ∀ a : Fin 2, win0_2.index t a * S256x36.size a ≤ (i a).val ∧ (i a).val < win0_2.index t a * S256x36.size a + S256x36.size a := by
  show i ∈ ((View.whole main_v32).slice (win0_2.rect t)).set ↔ _
  rw [View.set_slice_whole, Rect.mem_set_unit]
  exact Iff.rfl

/-- The blocks tile the output: row `r` is in the block of the point whose row block is `r / 256`. -/
theorem cover (i : S16384x36.Idx) : ∃ t : Fin cfg0.N, (cfg0.win 2).flush t = true ∧ i ∈ ((cfg0.win 2).blk t).view.set := by
  have hi0 : (i 0).val < 16384 := (i 0).isLt
  have hi1 : (i 1).val < 36 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 36 ≤ (i 1).val ∧ (i 1).val < win0_2.index t (1 : Fin 2) * 36 + 36; omega

/-- THE OUTPUT ARRAY after the region is the host's product of the arrays the region finds. -/
theorem final (c : Dev nD) : (dat0 V c).arrAt 2 cfg0.N = whole V c :=
  (dat0 V c).arrAt_eq_of_cover 2 (whole V c) (fun t _ => flushed_eq V c t) cover

end Cert.KernelIdeal.Layer1

end
-- ==== Proof.Layer2Product.lean ====
/-
  The second layer's product h₁ · W₂, tiled over its rows, is the host's one product.

  The grid has 8 points; point `t` multiplies rows `2048·t … 2048·t + 2047` of the left operand by the whole right operand
  and writes the 2048×36 result back as the same rows of the output. So the block a point writes back is the
  host's one product `A · W` read through the point's rows (`flushed_eq`: entry `(p, q)` of the block is
  `∑ k, A (2048·t + p, k) * W (k, q)` on both sides), the 8 blocks tile the output (`cover`), and the output array
  after the region is that product (`final`) — whatever the arrays the region finds hold, finite or not.
-/
import proofs.«108757_j71734543778230_1_alg».proof.Proof.Gen.KernelIdeal.Frame
import proofs.«108757_j71734543778230_1_alg».proof.Proof.LibRowBlock
import Idealize.ShloMosaic.Lib.Pipeline.Value
import Idealize.ShloMosaic.Lib.ValueIdx

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The host's product of the two arrays the region finds: the 16384×36 left operand by the 36×36 right one. -/
def whole (c : Dev nD) : S16384x36.Idx → EReal :=
  Host.dotGeneral (F := Ideal) (φ₁ := .f32) (φ₂ := .f32) (DotDims.plain 16384 36 36) none (V c main_v49) (V c main_arg4)

/-- The index maps over the grid: the left operand's row block moves with the output's, every column block and
    the right operand's block stay at zero, and there are 8 row blocks. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 7 :=
  (by decide +kernel : ∀ t : Fin grid1.N, _)

/-- Every row block is some point's. -/
theorem idx_onto : ∀ q0 : Fin 8, ∃ t : Fin cfg1.N, win1_2.index t = ![q0.val, 0] :=
  (by decide +kernel : ∀ q0 : Fin 8, ∃ t : Fin grid1.N, win1_2.index t = ![q0.val, 0])

/-- Row `p` of the left operand's block at point `t` is row `2048·t + p` of the array. -/
theorem read_left (c : Dev nD) (t : Fin cfg1.N) (p : Fin 2048) (k : Fin 36) (P : Fin 16384)
    (hP : P.val = win1_2.index t (0 : Fin 2) * 2048 + p.val) :
    (iblk1 V c 0 t (ix2 p k) : EReal) = V c main_v49 (ix2 P k) := by
  obtain ⟨e0, e1, -⟩ := idx_facts t
  show V c main_v49 (((cfg1.win 0).blk t).view.emb (ix2 p k)) = V c main_v49 (ix2 P k)
  refine congrArg (V c main_v49) ?_
  funext a; apply Fin.ext
  match a with
  | ⟨0, _⟩ => show win1_0.index t (0 : Fin 2) * 2048 + 1 * p.val = P.val; omega
  | ⟨1, _⟩ => show win1_0.index t (1 : Fin 2) * 36 + 1 * k.val = k.val; omega

/-- The right operand's block at any point is the whole array. -/
theorem read_right (c : Dev nD) (t : Fin cfg1.N) (k : Fin 36) (q : Fin 36) :
    (iblk1 V c 1 t (ix2 k q) : EReal) = V c main_arg4 (ix2 k q) := by
  obtain ⟨-, -, e2, e3, -⟩ := idx_facts t
  show V c main_arg4 (((cfg1.win 1).blk t).view.emb (ix2 k q)) = V c main_arg4 (ix2 k q)
  refine congrArg (V c main_arg4) ?_
  funext a; apply Fin.ext
  match a with
  | ⟨0, _⟩ => show win1_1.index t (0 : Fin 2) * 36 + 1 * k.val = k.val; omega
  | ⟨1, _⟩ => show win1_1.index t (1 : Fin 2) * 36 + 1 * q.val = q.val; omega

/-- The body's stored value on any two loaded blocks, at an entry: the product of the two blocks from the zero array (the body's cast of the left block to its own shape is the identity). -/
theorem pay_apply (x0 : Vec Ideal S2048x36 .f32) (x1 : Vec Ideal S36x36 .f32) (p : Fin 2048) (q : Fin 36) :
    k1_pay1 x0 x1 (ix2 p q)
      = FloatOps.matmul (F := Ideal) (φ₁ := .f32) (φ₂ := .f32) (DotDims.plain 2048 36 36) none x0 x1
          (constant ⟨2, ![2048, 36]⟩ .f32 0x00000000#32) (ix2 p q) := by
  unfold k1_pay1
  rw [shapeCast_self]
  rfl

/-- WHAT POINT `t` WRITES BACK is the whole product read through the point's rows. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S2048x36) hz, View.ld_unit_zero (S := S36x36) hz]
  obtain ⟨-, -, -, -, e4, e5⟩ := idx_facts t
  funext j
  obtain ⟨p, q, rfl⟩ : ∃ (p : Fin 2048) (q : Fin 36), j = ix2 p q := ⟨j 0, j 1, eq_ix2 j⟩
  have hp : p.val < 2048 := p.isLt
  let P : Fin 16384 := ⟨win1_2.index t (0 : Fin 2) * 2048 + p.val, by omega⟩
  have hemb : ((cfg1.win 2).blk t).view.emb (ix2 p q) = ix2 P q := by
    funext a; apply Fin.ext
    match a with
    | ⟨0, _⟩ => show win1_2.index t (0 : Fin 2) * 2048 + 1 * p.val = win1_2.index t (0 : Fin 2) * 2048 + p.val; omega
    | ⟨1, _⟩ => show win1_2.index t (1 : Fin 2) * 36 + 1 * q.val = q.val; omega
  show k1_pay1 (iblk1 V c 0 t) (iblk1 V c 1 t) (ix2 p q) = whole V c (((cfg1.win 2).blk t).view.emb (ix2 p q))
  rw [hemb, pay_apply]
  unfold whole
  exact Cert.Lib.RowBlock.matmul_eq_dotGeneral none none .single (V c main_v49) (V c main_arg4) _ _ P p q
    (fun k => read_left V c t p k P rfl) (fun k => read_right V c t k q)

/-- An index of the output is in point `t`'s block iff each coordinate is in the block's range on its axis. -/
theorem mem_blk (t : Fin cfg1.N) (i : S16384x36.Idx) :
    i ∈ ((cfg1.win 2).blk t).view.set ↔ ∀ a : Fin 2, win1_2.index t a * S2048x36.size a ≤ (i a).val ∧ (i a).val < win1_2.index t a * S2048x36.size a + S2048x36.size a := by
  show i ∈ ((View.whole main_v50).slice (win1_2.rect t)).set ↔ _
  rw [View.set_slice_whole, Rect.mem_set_unit]
  exact Iff.rfl

/-- The blocks tile the output: row `r` is in the block of the point whose row block is `r / 2048`. -/
theorem cover (i : S16384x36.Idx) : ∃ t : Fin cfg1.N, (cfg1.win 2).flush t = true ∧ i ∈ ((cfg1.win 2).blk t).view.set := by
  have hi0 : (i 0).val < 16384 := (i 0).isLt
  have hi1 : (i 1).val < 36 := (i 1).isLt
  obtain ⟨t, ht⟩ := idx_onto ⟨(i 0).val / 2048, by omega⟩
  have q0 : win1_2.index t (0 : Fin 2) = (i 0).val / 2048 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 36 ≤ (i 1).val ∧ (i 1).val < win1_2.index t (1 : Fin 2) * 36 + 36; omega

/-- THE OUTPUT ARRAY after the region is the host's product of the arrays the region finds. -/
theorem final (c : Dev nD) : (dat1 V c).arrAt 2 cfg1.N = whole V c :=
  (dat1 V c).arrAt_eq_of_cover 2 (whole V c) (fun t _ => flushed_eq V c t) cover

end Cert.KernelIdeal.Layer2

end
-- ==== Proof.Layer3Product.lean ====
/-
  The third layer's product h₂ · W₃, tiled over its rows, is the host's one product.

  The grid has 8 points; point `t` multiplies rows `2048·t … 2048·t + 2047` of the left operand by the whole right operand
  and writes the 2048×16 result back as the same rows of the output. So the block a point writes back is the
  host's one product `A · W` read through the point's rows (`flushed_eq`: entry `(p, q)` of the block is
  `∑ k, A (2048·t + p, k) * W (k, q)` on both sides), the 8 blocks tile the output (`cover`), and the output array
  after the region is that product (`final`) — whatever the arrays the region finds hold, finite or not.
-/
import proofs.«108757_j71734543778230_1_alg».proof.Proof.Gen.KernelIdeal.Frame
import proofs.«108757_j71734543778230_1_alg».proof.Proof.LibRowBlock
import Idealize.ShloMosaic.Lib.Pipeline.Value
import Idealize.ShloMosaic.Lib.ValueIdx

set_option maxRecDepth 16384

noncomputable section

namespace Cert.KernelIdeal.Layer3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The host's product of the two arrays the region finds: the 16384×36 left operand by the 36×16 right one. -/
def whole (c : Dev nD) : S16384x16.Idx → EReal :=
  Host.dotGeneral (F := Ideal) (φ₁ := .f32) (φ₂ := .f32) (DotDims.plain 16384 36 16) none (V c main_v67) (V c main_arg6)

/-- The index maps over the grid: the left operand's row block moves with the output's, every column block and
    the right operand's block stay at zero, and there are 8 row blocks. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 7 :=
  (by decide +kernel : ∀ t : Fin grid2.N, _)

/-- Every row block is some point's. -/
theorem idx_onto : ∀ q0 : Fin 8, ∃ t : Fin cfg2.N, win2_2.index t = ![q0.val, 0] :=
  (by decide +kernel : ∀ q0 : Fin 8, ∃ t : Fin grid2.N, win2_2.index t = ![q0.val, 0])

/-- Row `p` of the left operand's block at point `t` is row `2048·t + p` of the array. -/
theorem read_left (c : Dev nD) (t : Fin cfg2.N) (p : Fin 2048) (k : Fin 36) (P : Fin 16384)
    (hP : P.val = win2_2.index t (0 : Fin 2) * 2048 + p.val) :
    (iblk2 V c 0 t (ix2 p k) : EReal) = V c main_v67 (ix2 P k) := by
  obtain ⟨e0, e1, -⟩ := idx_facts t
  show V c main_v67 (((cfg2.win 0).blk t).view.emb (ix2 p k)) = V c main_v67 (ix2 P k)
  refine congrArg (V c main_v67) ?_
  funext a; apply Fin.ext
  match a with
  | ⟨0, _⟩ => show win2_0.index t (0 : Fin 2) * 2048 + 1 * p.val = P.val; omega
  | ⟨1, _⟩ => show win2_0.index t (1 : Fin 2) * 36 + 1 * k.val = k.val; omega

/-- The right operand's block at any point is the whole array. -/
theorem read_right (c : Dev nD) (t : Fin cfg2.N) (k : Fin 36) (q : Fin 16) :
    (iblk2 V c 1 t (ix2 k q) : EReal) = V c main_arg6 (ix2 k q) := by
  obtain ⟨-, -, e2, e3, -⟩ := idx_facts t
  show V c main_arg6 (((cfg2.win 1).blk t).view.emb (ix2 k q)) = V c main_arg6 (ix2 k q)
  refine congrArg (V c main_arg6) ?_
  funext a; apply Fin.ext
  match a with
  | ⟨0, _⟩ => show win2_1.index t (0 : Fin 2) * 36 + 1 * k.val = k.val; omega
  | ⟨1, _⟩ => show win2_1.index t (1 : Fin 2) * 16 + 1 * q.val = q.val; omega

/-- The body's stored value on any two loaded blocks, at an entry: the product of the two blocks from the zero array (the body's cast of the left block to its own shape is the identity). -/
theorem pay_apply (x0 : Vec Ideal S2048x36 .f32) (x1 : Vec Ideal S36x16 .f32) (p : Fin 2048) (q : Fin 16) :
    k2_pay1 x0 x1 (ix2 p q)
      = FloatOps.matmul (F := Ideal) (φ₁ := .f32) (φ₂ := .f32) (DotDims.plain 2048 36 16) none x0 x1
          (constant ⟨2, ![2048, 16]⟩ .f32 0x00000000#32) (ix2 p q) := by
  unfold k2_pay1
  rw [shapeCast_self]
  rfl

/-- WHAT POINT `t` WRITES BACK is the whole product read through the point's rows. -/
theorem flushed_eq (c : Dev nD) (t : Fin cfg2.N) :
    (dat2 V c).flushed 2 t = ((cfg2.win 2).blk t).view.read (Elt Ideal) (whole V c) := by
  show (cfg2.win 2).cut (grid2.coords t) ((dat2 V c).after 2 t) = _
  rw [after2_2]
  unfold out2_2
  rw [View.canon_unit_zero hz]
  simp only [View.ld_unit_zero (S := S2048x36) hz, View.ld_unit_zero (S := S36x16) hz]
  obtain ⟨-, -, -, -, e4, e5⟩ := idx_facts t
  funext j
  obtain ⟨p, q, rfl⟩ : ∃ (p : Fin 2048) (q : Fin 16), j = ix2 p q := ⟨j 0, j 1, eq_ix2 j⟩
  have hp : p.val < 2048 := p.isLt
  let P : Fin 16384 := ⟨win2_2.index t (0 : Fin 2) * 2048 + p.val, by omega⟩
  have hemb : ((cfg2.win 2).blk t).view.emb (ix2 p q) = ix2 P q := by
    funext a; apply Fin.ext
    match a with
    | ⟨0, _⟩ => show win2_2.index t (0 : Fin 2) * 2048 + 1 * p.val = win2_2.index t (0 : Fin 2) * 2048 + p.val; omega
    | ⟨1, _⟩ => show win2_2.index t (1 : Fin 2) * 16 + 1 * q.val = q.val; omega
  show k2_pay1 (iblk2 V c 0 t) (iblk2 V c 1 t) (ix2 p q) = whole V c (((cfg2.win 2).blk t).view.emb (ix2 p q))
  rw [hemb, pay_apply]
  unfold whole
  exact Cert.Lib.RowBlock.matmul_eq_dotGeneral none none .single (V c main_v67) (V c main_arg6) _ _ P p q
    (fun k => read_left V c t p k P rfl) (fun k => read_right V c t k q)

/-- An index of the output is in point `t`'s block iff each coordinate is in the block's range on its axis. -/
theorem mem_blk (t : Fin cfg2.N) (i : S16384x16.Idx) :
    i ∈ ((cfg2.win 2).blk t).view.set ↔ ∀ a : Fin 2, win2_2.index t a * S2048x16.size a ≤ (i a).val ∧ (i a).val < win2_2.index t a * S2048x16.size a + S2048x16.size a := by
  show i ∈ ((View.whole main_v68).slice (win2_2.rect t)).set ↔ _
  rw [View.set_slice_whole, Rect.mem_set_unit]
  exact Iff.rfl

/-- The blocks tile the output: row `r` is in the block of the point whose row block is `r / 2048`. -/
theorem cover (i : S16384x16.Idx) : ∃ t : Fin cfg2.N, (cfg2.win 2).flush t = true ∧ i ∈ ((cfg2.win 2).blk t).view.set := by
  have hi0 : (i 0).val < 16384 := (i 0).isLt
  have hi1 : (i 1).val < 16 := (i 1).isLt
  obtain ⟨t, ht⟩ := idx_onto ⟨(i 0).val / 2048, by omega⟩
  have q0 : win2_2.index t (0 : Fin 2) = (i 0).val / 2048 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 16 ≤ (i 1).val ∧ (i 1).val < win2_2.index t (1 : Fin 2) * 16 + 16; omega

/-- THE OUTPUT ARRAY after the region is the host's product of the arrays the region finds. -/
theorem final (c : Dev nD) : (dat2 V c).arrAt 2 cfg2.N = whole V c :=
  (dat2 V c).arrAt_eq_of_cover 2 (whole V c) (fun t _ => flushed_eq V c t) cover

end Cert.KernelIdeal.Layer3

end
-- ==== Proof.KernelValue.lean ====
/-
  The idealized kernel's result is the reference's term of the arguments.

  Read backwards from the last boundary, the kernel's @main is the reference's own straight line of host operations:
  the edge list's normalisation, then three times "product, gather along the sources, scale by the edge norms,
  scatter-add onto the targets, add the bias" (with a relu after the first two and a row softmax after the third).
  The only lines that differ are the three products, which the kernel computes tile by tile; each region leaves in
  its output array exactly the host's product of the arrays it was entered with (the three `final` theorems), and
  touches nothing else. So folding the host stretches back through the regions gives, operation for operation, the
  term the reference's run ends at — on the extended reals, with no appeal to finiteness, because the two sides are
  the same sums of the same products.
-/
import proofs.«108757_j71734543778230_1_alg».proof.Proof.Layer1Product
import proofs.«108757_j71734543778230_1_alg».proof.Proof.Layer2Product
import proofs.«108757_j71734543778230_1_alg».proof.Proof.Layer3Product
import proofs.«108757_j71734543778230_1_alg».proof.Proof.RefRun

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- After the first product: its output array holds the host's product of the two arrays the region was entered with. -/
theorem W4_out (c : Dev nD) : W4 m ρ c (no_index (Proc.devRef .tc main_v32))
    = Host.dotGeneral (F := Ideal) (φ₁ := .f32) (φ₂ := .f32) (DotDims.plain 16384 16384 36) none
        (W3 m ρ c (Proc.devRef .tc main_arg0)) (W3 m ρ c (Proc.devRef .tc main_arg2)) :=
  (W4_arr m ρ c 2).trans (Layer1.final (V3 m ρ) c)

/-- … and every buffer that is none of the region's three arrays holds what it held when the region was entered. -/
theorem W4_other (c : Dev nD) (b : Ref sig .tc) (h0 : b ≠ main_arg0) (h1 : b ≠ main_arg2) (h2 : b ≠ main_v32) :
    W4 m ρ c (no_index (Proc.devRef .tc b)) = W3 m ρ c (Proc.devRef .tc b) :=
  W4_of_ne m ρ c b fun w => match w with
    | ⟨0, _⟩ => Ne.symm h0
    | ⟨1, _⟩ => Ne.symm h1
    | ⟨2, _⟩ => Ne.symm h2

/-- After the second product: its output array holds the host's product of the two arrays the region was entered with. -/
theorem W7_out (c : Dev nD) : W7 m ρ c (no_index (Proc.devRef .tc main_v50))
    = Host.dotGeneral (F := Ideal) (φ₁ := .f32) (φ₂ := .f32) (DotDims.plain 16384 36 36) none
        (W6 m ρ c (Proc.devRef .tc main_v49)) (W6 m ρ c (Proc.devRef .tc main_arg4)) :=
  (W7_arr m ρ c 2).trans (Layer2.final (V6 m ρ) c)

/-- … and every buffer that is none of the region's three arrays holds what it held when the region was entered. -/
theorem W7_other (c : Dev nD) (b : Ref sig .tc) (h0 : b ≠ main_v49) (h1 : b ≠ main_arg4) (h2 : b ≠ main_v50) :
    W7 m ρ c (no_index (Proc.devRef .tc b)) = W6 m ρ c (Proc.devRef .tc b) :=
  W7_of_ne m ρ c b fun w => match w with
    | ⟨0, _⟩ => Ne.symm h0
    | ⟨1, _⟩ => Ne.symm h1
    | ⟨2, _⟩ => Ne.symm h2

/-- After the third product: its output array holds the host's product of the two arrays the region was entered with. -/
theorem W10_out (c : Dev nD) : W10 m ρ c (no_index (Proc.devRef .tc main_v68))
    = Host.dotGeneral (F := Ideal) (φ₁ := .f32) (φ₂ := .f32) (DotDims.plain 16384 36 16) none
        (W9 m ρ c (Proc.devRef .tc main_v67)) (W9 m ρ c (Proc.devRef .tc main_arg6)) :=
  (W10_arr m ρ c 2).trans (Layer3.final (V9 m ρ) c)

/-- … and every buffer that is none of the region's three arrays holds what it held when the region was entered. -/
theorem W10_other (c : Dev nD) (b : Ref sig .tc) (h0 : b ≠ main_v67) (h1 : b ≠ main_arg6) (h2 : b ≠ main_v68) :
    W10 m ρ c (no_index (Proc.devRef .tc b)) = W9 m ρ c (Proc.devRef .tc b) :=
  W10_of_ne m ρ c b fun w => match w with
    | ⟨0, _⟩ => Ne.symm h0
    | ⟨1, _⟩ => Ne.symm h1
    | ⟨2, _⟩ => Ne.symm h2

/-- The two reshapes of @main's first stretch (a [1, 524288] row of the edge list read as a vector) keep the element
    type, so what each writes is the cast of its operand's contents with no change of element type to carry. -/
theorem reshape_v2 (F : Valuation τ sig (Elt Ideal)) :
    (reshape (τ := τ) (Val := Elt Ideal) main_v1 main_v2 rfl shapeCasts_S1x524288_S524288).result F (no_index (Proc.devRef .tc main_v2))
      = shapeCast S524288 (F (Proc.devRef .tc main_v1)) shapeCasts_S1x524288_S524288 :=
  reshape_result main_v1 main_v2 rfl shapeCasts_S1x524288_S524288 _ _ F
theorem reshape_v5 (F : Valuation τ sig (Elt Ideal)) :
    (reshape (τ := τ) (Val := Elt Ideal) main_v4 main_v5 rfl shapeCasts_S1x524288_S524288).result F (no_index (Proc.devRef .tc main_v5))
      = shapeCast S524288 (F (Proc.devRef .tc main_v4)) shapeCasts_S1x524288_S524288 :=
  reshape_result main_v4 main_v5 rfl shapeCasts_S1x524288_S524288 _ _ F

set_option maxHeartbeats 400000000 in
set_option maxRecDepth 100000 in
/-- The reference's composed term, at a memory that agrees with the kernel's on the eight arguments, is what the
    kernel's result buffer holds at the last boundary. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    Cert.ReferenceIdeal.ValueP.res_main_v95 (F := Ideal) m' c = W11 m ρ c (Proc.devRef .tc main_v95) := by
  -- the reference's term, at the kernel's argument arrays
  unfold Cert.ReferenceIdeal.ValueP.res_main_v95
  rw [h0, h1, h2, h3, h4, h5, h6, h7]
  symm
  -- the kernel's last boundary, folded back through the host stretches and the three regions to the launch memory:
  -- each host line at its own result buffer is its function of its operands' contents, at any other buffer it leaves
  -- what was there; each region at its output array is the host's product, elsewhere it leaves what was there; the
  -- identity casts around the called functions' values (relu, where) are dropped
  simp (disch := decide) only [W11, W9, W8, W6, W5, W3, W2, W1,
    hostOps0, hostOps0_1, hostOps0_2, hostOps1, hostOps1_1, hostOps2, hostOps2_1, hostOps3,
    W10_out, W10_other, W7_out, W7_other, W4_out, W4_other,
    after_cons, after_nil, cast_eq,
    nullary_result', unary_result', binary_result', ternary_result', quaternary_result', reshape_v2, reshape_v5, nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  -- the source and target index vectors are concatenations (the edge list's row, then the self loops); their two
  -- pieces sit in a list of (shape, array) pairs, which only rewriting reaches
  repeat (first
    | rw [reshape_v5] | rw [reshape_v2] | rw [nullary_result] | rw [unary_result] | rw [binary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

end Cert.KernelIdeal.Value

end
-- ==== Proof.lean ====
/-
  A three-layer graph convolution network: the tiled kernel against its jnp reference, on the extended reals.

  Both programs normalise the edge list the same way (self loops added, D^{-1/2}(A + I)D^{-1/2}) and then apply three
  times "h · W, gather the rows at the edge sources, scale by the edge norm, scatter-add onto the edge targets, add the
  bias" — a relu after the first two layers, a row softmax after the third. They differ only in how h · W is computed:
  the reference by one host product, the kernel by a grid of row blocks (256 rows at a time for the 16384×16384 input,
  rounded to bf16 on the way in; 2048 rows at a time for the two 16384×36 activations), each block multiplied on the
  vector unit into a zero accumulator. On the extended reals a change of float format is the identity and a block's
  product is the same sum of the same products as the corresponding rows of the whole product
  (Proof/LibRowBlock.lean), so every region leaves the host's product in its output array (Proof/Layer{1,2,3}Product.lean)
  and the kernel's result is, operation for operation, the reference's term of the arguments (Proof/KernelValue.lean).
  Finiteness of the inputs is never used: the two sides are one expression, not two expressions related by an algebraic law.

  The three frames: the kernel's two are the generated ones; the reference has no kernel, and its frame is its run
  (Proof/RefRun.lean) with the result dropped. The idealization rewrote nothing, so `preserves` is `True`.
-/
import proofs.«108757_j71734543778230_1_alg».proof.Defs
import proofs.«108757_j71734543778230_1_alg».proof.Proof.Gen.Kernel
import proofs.«108757_j71734543778230_1_alg».proof.Proof.Gen.Kernel.Frame
import proofs.«108757_j71734543778230_1_alg».proof.Proof.Gen.KernelIdeal
import proofs.«108757_j71734543778230_1_alg».proof.Proof.Gen.KernelIdeal.Frame
import proofs.«108757_j71734543778230_1_alg».proof.Proof.Gen.ReferenceIdeal
import proofs.«108757_j71734543778230_1_alg».proof.Proof.Gen.Pre_finite_inputs
import proofs.«108757_j71734543778230_1_alg».proof.Proof.RefRun
import proofs.«108757_j71734543778230_1_alg».proof.Proof.KernelRun
import proofs.«108757_j71734543778230_1_alg».proof.Proof.KernelValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the eight arguments both programs end with the same result array: the kernel's at
    its last boundary's contents, the reference's at its composed term, which are one term of the arguments. -/
theorem algebraic : Cert.algebraic_KernelIdeal_ReferenceIdeal := by
  intro m ρ m' ρ' _ hagree
  refine ⟨fun c => Cert.KernelIdeal.Gen.W11 m ρ c (Proc.devRef .tc Cert.KernelIdeal.main_v95),
    Cert.KernelIdeal.Run.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  exact Cert.KernelIdeal.Value.result_eq m ρ m' c h0 h1 h2 h3 h4 h5 h6 h7

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
